-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S40x64 1) : IVec S_ 1 :=
  let main_c_5 : IVec S_ 1 := constantI S_ 1 1#1
  let main_v17 : IVec S_ 1 := (fun x v => Host.reduce IntOp.andi x v reducesTo_S40x64_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x64 .f32) (main_arg3 : FVec F S64 .f32) (main_arg4 : FVec F S40x64 .f32) (main_arg5 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S40x64 .f32 := Host.absf main_arg4
  let main_cst_4 : FVec F S_ .f32 := constant S_ .f32 0x7F800000#32
  let main_v15 : FVec F S40x64 .f32 := broadcastInDim S40x64 ![] bcast_S_S40x64 main_cst_4
  let main_v16 : IVec S40x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S800000 : Shape := ⟨1, ![800000]⟩
abbrev S50000x64 : Shape := ⟨2, ![50000, 64]⟩
abbrev S5000x512 : Shape := ⟨2, ![5000, 512]⟩
abbrev S5000x64 : Shape := ⟨2, ![5000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S64x40 : Shape := ⟨2, ![64, 40]⟩
abbrev S1x64 : Shape := ⟨2, ![1, 64]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 67
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S40x64, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S64x40, .f32⟩
  | .hbm, ⟨64, _⟩ => ⟨S1x64, .f32⟩
  | .hbm, ⟨65, _⟩ => ⟨S1x40, .f32⟩
  | .hbm, ⟨66, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  transposes_S40x64_S64x40_1_0 : S40x64.Transposes [1, 0] S64x40
  shapeCasts_S64_S1x64 : S64.ShapeCasts S1x64
  shapeCasts_S40_S1x40 : S40.ShapeCasts S1x40
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x512_S512x64_S5000x64_1_0_0_1_n_n_wf : DotDims.WF S5000x512 S512x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S64x40 : Shape := ⟨2, ![64, 40]⟩
abbrev S50000x40 : Shape := ⟨2, ![50000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S40x64, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S64x40, .f32⟩
  | .hbm, ⟨70, _⟩ => ⟨S50000x40, .f32⟩
  | .hbm, ⟨71, _⟩ => ⟨S1x40, .f32⟩
  | .hbm, ⟨72, _⟩ => ⟨S50000x40, .f32⟩
  | .hbm, ⟨73, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S40x64_S64x40_1_0 : S40x64.Transposes [1, 0] S64x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x64_S50000x64_1_0_0_1_n_n_wf : DotDims.WF S50000x512 S512x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x40_S50000x40_1_0_0_1_n_n_wf : DotDims.WF S50000x64 S64x40 S50000x40 [1] [0] [0] [1] [] []

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KernelRun.lean ====
/-
  The idealized kernel's run with its result array named.

  @main is six segments: a stretch of host operations, the first launch (h = X·W1, ten row blocks), three
  stretches of host operations (the degree normalisation, the gather, the scatter-add), the second launch
  (the rectified affine layer, ten row blocks). The generated frame walks the TensorCore's buffer contents
  through these segments (`W0 … W6`) and states that the argument arrays end as launched. Here the same launch
  is read once more at the result buffer: after the run it holds what the second launch's write-backs leave in
  its output window's array, `(dat1 (V5 m ρ) c).arrAt 4 cfg1.N`, the fold of the ten blocks written back.
-/
import proofs.«148731_j14937896255790_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second launch's output window's array, so at the last segment boundary it holds
    the fold of that window's write-backs. -/
theorem W6_result (c : Dev nD) :
    W6 m ρ c (Proc.devRef .tc main_v47) = (dat1 (V5 m ρ) c).arrAt 4 cfg1.N :=
  W6_arr m ρ c 4

set_option backward.isDefEq.respectTransparency.types false in
/-- Every weakly fair execution of @main terminates, nothing faulting, with the result buffer at the second
    launch's folded write-backs and the argument arrays as launched. -/
theorem run_named : θ_run defs (onTc (τ := τ) (main (F := F))) ⟨m, fun _ => 0, ρ⟩ (fun r => ∀ c : Dev nD,
      r.2.mem ((c.tc : Thread nD τ).loc main_v47) = (dat1 (V5 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v47 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.FirstLaunch.lean ====
/-
  The first launch: h = X · W1.

  The grid has ten points; point t stages rows 5000·t … 5000·t + 4999 of X (all 512 columns), all of W1, and
  writes back rows 5000·t … 5000·t + 4999 of h (all 64 columns). The body multiplies the two staged blocks into
  a zero accumulator, so at the ideal instance (a change of float format is the identity, the product into zero
  is the plain sum) element (p, q) of the block written back is the sum over k of X(5000·t + p, k) · W1(k, q).
  That is the block's restriction of ONE function of the two arrays, `prod`; the ten blocks tile the 50000 rows,
  so after the launch the output array holds `prod` of the arrays the launch found.
-/
import proofs.«148731_j14937896255790_1_alg».proof.Proof.Gen.KernelIdeal.Frame
import proofs.«148731_j14937896255790_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.FirstLaunch

open Idealize.ShloMosaic Idealize.ShloMosaic.TcCoe Idealize.SL.Sem Idealize.ShloMosaic.ValueIdx
open Idealize.ShloMosaic.Pipeline (Dat)
open Cert.KernelIdeal Cert.KernelIdeal.Gen

/-- The matrix product, index by index: entry (r, c) is the sum over k of X(r, k) · W(k, c). -/
def prod (X : S50000x512.Idx → EReal) (W : S512x64.Idx → EReal) : S50000x64.Idx → EReal :=
  fun i => ∑ k : Fin 512, X (ix2 ⟨(i 0).val, idx2_lt0 i⟩ k) * W (ix2 k ⟨(i 1).val, idx2_lt1 i⟩)

local notation "dotXW" => dot_S5000x512_S512x64_S5000x64_1_0_0_1_n_n

/-! The block product's dimension numbers, one operand coordinate at a time: the left operand is read at
    (output row, k), the right at (k, output column). -/
theorem lhs0 (i : S5000x64.Idx) (q : (dotXW).contr.Idx) : ((dotXW).lhsIdx i q 0).val = (i 0).val := by
  unfold DotDims.lhsIdx
  rw [dif_neg (show ¬(0 : Fin S5000x512.rank) ∈ (dotXW).lhsBatch by decide),
    dif_pos (show (0 : Fin S5000x512.rank) ∈ (dotXW).lhsNonContracting by decide)]
  rfl
theorem lhs1 (i : S5000x64.Idx) (q : (dotXW).contr.Idx) : ((dotXW).lhsIdx i q 1).val = (q ⟨0, by decide⟩).val :=
  (dotXW).lhsIdx_val_of_single rfl i q
theorem rhs0 (i : S5000x64.Idx) (q : (dotXW).contr.Idx) : ((dotXW).rhsIdx i q 0).val = (q ⟨0, by decide⟩).val :=
  (dotXW).rhsIdx_val_of_single rfl i q
theorem rhs1 (i : S5000x64.Idx) (q : (dotXW).contr.Idx) : ((dotXW).rhsIdx i q 1).val = (i 1).val := by
  unfold DotDims.rhsIdx
  rw [dif_neg (show ¬(1 : Fin S512x64.rank) ∈ (dotXW).rhsBatch by decide),
    dif_pos (show (1 : Fin S512x64.rank) ∈ (dotXW).rhsNonContracting by decide)]
  rfl

/-- The body's stored value at (p, q): the sum over k of the staged X block at (p, k) times the staged W1 at
    (k, q) — the narrowing to bf16 is the identity on extended reals and the accumulator is zero. -/
theorem pay_apply (x0 : S5000x512.Idx → EReal) (x1 : S512x64.Idx → EReal) (j : S5000x64.Idx) :
    k0_pay1 (F := Ideal) x0 x1 j
      = ∑ k : Fin 512, x0 (ix2 ⟨(j 0).val, idx2_lt0 j⟩ k) * x1 (ix2 k ⟨(j 1).val, idx2_lt1 j⟩) := by
  unfold k0_pay1
  refine (Ideal.matmul_constant_zero_apply dotXW none _ _ j).trans ?_
  exact Cert.PlainDot.sum_eq (M := 5000) (K := 512) (N := 64) dotXW rfl rfl lhs0 lhs1 rhs0 rhs1 x0 x1 j

section AtEntry
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: X's window and the output's move together down the rows; W1's window
    stays put; no window moves along the columns; the output's block row is at most 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row 0 … 9 is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays the launch found. -/
theorem flushed_eq (c : Dev nD) (t : Fin cfg0.N) :
    (dat0 V c).flushed 2 t
      = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx_facts t
  funext y
  show k0_pay1 (F := Ideal) (iblk0 V c 0 t) (iblk0 V c 1 t) y
    = prod (V c main_arg0) (V c main_arg2) (((cfg0.win 2).blk t).view.emb y)
  refine (pay_apply (iblk0 V c 0 t) (iblk0 V c 1 t) y).trans ?_
  unfold prod
  refine Finset.sum_congr rfl fun k _ => ?_
  have hy0 : (y 0).val < 5000 := (y 0).isLt
  have hy1 : (y 1).val < 64 := (y 1).isLt
  have h0 : ((cfg0.win 0).blk t).view.emb (ix2 ⟨(y 0).val, idx2_lt0 y⟩ k)
      = ix2 ⟨((((cfg0.win 2).blk t).view.emb y) 0).val, idx2_lt0 _⟩ k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 512 + 1 * k.val = k.val; omega
  have h1 : ((cfg0.win 1).blk t).view.emb (ix2 k ⟨(y 1).val, idx2_lt1 y⟩)
      = ix2 k ⟨((((cfg0.win 2).blk t).view.emb y) 1).val, idx2_lt1 _⟩ := by
    funext a; apply Fin.ext
    match a with
    | ⟨0, _⟩ => show win0_1.index t (0 : Fin 2) * 512 + 1 * k.val = k.val; omega
    | ⟨1, _⟩ => show win0_1.index t (1 : Fin 2) * 64 + 1 * (y 1).val = win0_2.index t (1 : Fin 2) * 64 + 1 * (y 1).val; omega
  refine congrArg₂ (· * ·) ?_ ?_
  · exact congrArg (V c main_arg0) h0
  · exact congrArg (V c main_arg2) h1

/-- An index of the output array is in point `t`'s block iff each coordinate is in the block's range. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- The ten row blocks cover the output array: row r is in the block of the point whose block row is r / 5000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the first launch its output array holds the product of the two arrays it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end AtEntry

end Cert.KernelIdeal.FirstLaunch

end
-- ==== Proof.SecondLaunch.lean ====
/-
  The second launch: out = max(agg + b1, 0) · Wfcᵀ + bfc.

  The grid has ten points; point t stages rows 5000·t … 5000·t + 4999 of the aggregated features (all 64
  columns), the whole one-row bias b1, the whole transposed weight (64 × 40), the whole one-row bias bfc, and
  writes back rows 5000·t … 5000·t + 4999 of the result (all 40 columns). At the ideal instance element (p, q)
  of the block written back is  Σ_k max(agg(5000·t + p, k) + b1(0, k), 0) · W(k, q)  +  bfc(0, q):
  the one-row biases are broadcast down the rows, the narrowing to bf16 is the identity on extended reals, and
  the product into a zero accumulator is the plain sum. That is the block's restriction of ONE function of the
  four arrays, `layer`; the ten blocks tile the 50000 rows, so after the launch the output array holds `layer`
  of the arrays the launch found.
-/
import proofs.«148731_j14937896255790_1_alg».proof.Proof.Gen.KernelIdeal.Frame
import proofs.«148731_j14937896255790_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondLaunch

open Idealize.ShloMosaic Idealize.ShloMosaic.TcCoe Idealize.SL.Sem Idealize.ShloMosaic.ValueIdx
open Idealize.ShloMosaic.Pipeline (Dat)
open Cert.KernelIdeal Cert.KernelIdeal.Gen

/-- The rectified affine layer, index by index: entry (r, c) is
    Σ_k max(A(r, k) + b(0, k), 0) · W(k, c) + d(0, c). -/
def layer (A : S50000x64.Idx → EReal) (b : S1x64.Idx → EReal) (W : S64x40.Idx → EReal) (d : S1x40.Idx → EReal) :
    S50000x40.Idx → EReal :=
  fun i => (∑ k : Fin 64, max (A (ix2 ⟨(i 0).val, idx2_lt0 i⟩ k) + b (ix2 (0 : Fin 1) k)) 0
      * W (ix2 k ⟨(i 1).val, idx2_lt1 i⟩)) + d (ix2 (0 : Fin 1) ⟨(i 1).val, idx2_lt1 i⟩)

local notation "dotFC" => dot_S5000x64_S64x40_S5000x40_1_0_0_1_n_n

/-! The block product's dimension numbers, one operand coordinate at a time: the left operand is read at
    (output row, k), the right at (k, output column). -/
theorem lhs0 (i : S5000x40.Idx) (q : (dotFC).contr.Idx) : ((dotFC).lhsIdx i q 0).val = (i 0).val := by
  unfold DotDims.lhsIdx
  rw [dif_neg (show ¬(0 : Fin S5000x64.rank) ∈ (dotFC).lhsBatch by decide),
    dif_pos (show (0 : Fin S5000x64.rank) ∈ (dotFC).lhsNonContracting by decide)]
  rfl
theorem lhs1 (i : S5000x40.Idx) (q : (dotFC).contr.Idx) : ((dotFC).lhsIdx i q 1).val = (q ⟨0, by decide⟩).val :=
  (dotFC).lhsIdx_val_of_single rfl i q
theorem rhs0 (i : S5000x40.Idx) (q : (dotFC).contr.Idx) : ((dotFC).rhsIdx i q 0).val = (q ⟨0, by decide⟩).val :=
  (dotFC).rhsIdx_val_of_single rfl i q
theorem rhs1 (i : S5000x40.Idx) (q : (dotFC).contr.Idx) : ((dotFC).rhsIdx i q 1).val = (i 1).val := by
  unfold DotDims.rhsIdx
  rw [dif_neg (show ¬(1 : Fin S64x40.rank) ∈ (dotFC).rhsBatch by decide),
    dif_pos (show (1 : Fin S64x40.rank) ∈ (dotFC).rhsNonContracting by decide)]
  rfl

/-- The body's stored value at (p, q), from the four staged blocks. -/
theorem pay_apply (v0 : S5000x64.Idx → EReal) (v2 : S1x64.Idx → EReal) (v9 : S64x40.Idx → EReal)
    (v13 : S1x40.Idx → EReal) (p : Fin 5000) (q : Fin 40) :
    k1_pay1 (F := Ideal) v0 v2 v9 v13 (ix2 p q)
      = (∑ k : Fin 64, max (v0 (ix2 p k) + v2 (ix2 (0 : Fin 1) k)) 0 * v9 (ix2 k q)) + v13 (ix2 (0 : Fin 1) q) := by
  unfold k1_pay1
  refine (addf_apply _ _ _).trans ?_
  refine congrArg₂ (· + ·) ?_ ?_
  · refine (Ideal.matmul_constant_zero_apply dotFC none _ _ _).trans ?_
    refine (Cert.PlainDot.sum_eq (M := 5000) (K := 64) (N := 40) dotFC rfl rfl lhs0 lhs1 rhs0 rhs1 _ _ _).trans ?_
    refine Finset.sum_congr rfl fun k _ => ?_
    show max (shapeCast S5000x64 v0 shapeCasts_S5000x64_S5000x64 (ix2 p k)
          + broadcastTo S5000x64 (shapeCast S1x64 v2 shapeCasts_S1x64_S1x64) broadcasts_S1x64_S5000x64 (ix2 p k))
        (Ideal.ofBits .f32 0x00000000#32)
      * shapeCast S64x40 v9 shapeCasts_S64x40_S64x40 (ix2 k q) = _
    rw [shapeCast_self, shapeCast_self, shapeCast_self, broadcastTo_1b_ab_apply, Ideal.ofBits_zero_f32]
  · show broadcastTo S5000x40 (shapeCast S1x40 v13 shapeCasts_S1x40_S1x40) broadcasts_S1x40_S5000x40 (ix2 p q) = _
    rw [shapeCast_self, broadcastTo_1b_ab_apply]

section AtEntry
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregated features' window and the output's move together down
    the rows; the two biases' and the weight's windows stay put; no window moves along the columns. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) ≤ 9 :=
  (by decide +kernel : ∀ t : Fin grid1.N, _)

/-- Every block row 0 … 9 is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is block `t` of the layer of the four arrays the launch found. -/
theorem flushed_eq (c : Dev nD) (t : Fin cfg1.N) :
    (dat1 V c).flushed 4 t
      = ((cfg1.win 4).blk t).view.read (Elt Ideal) (layer (V c main_v43) (V c main_v45) (V c main_v44) (V c main_v46)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz,
    View.ld_unit_zero (S := S64x40) hz, View.ld_unit_zero (S := S1x40) hz]
  obtain ⟨e0, e1, e2, e3, e4, e5, e6, e7, e8, e9⟩ := idx_facts t
  funext y
  obtain ⟨p, q, rfl⟩ : ∃ (p : Fin 5000) (q : Fin 40), y = ix2 p q := ⟨y 0, y 1, eq_ix2 y⟩
  show k1_pay1 (F := Ideal) (iblk1 V c 0 t) (iblk1 V c 1 t) (iblk1 V c 2 t) (iblk1 V c 3 t) (ix2 p q)
    = layer (V c main_v43) (V c main_v45) (V c main_v44) (V c main_v46) (((cfg1.win 4).blk t).view.emb (ix2 p q))
  refine (pay_apply (iblk1 V c 0 t) (iblk1 V c 1 t) (iblk1 V c 2 t) (iblk1 V c 3 t) p q).trans ?_
  unfold layer
  have hp : p.val < 5000 := p.isLt
  have hq : q.val < 40 := q.isLt
  have h0 : ∀ k : Fin 64, ((cfg1.win 0).blk t).view.emb (ix2 p k)
      = ix2 ⟨((((cfg1.win 4).blk t).view.emb (ix2 p q)) 0).val, idx2_lt0 _⟩ k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  have h1 : ∀ k : Fin 64, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ∀ k : Fin 64, ((cfg1.win 2).blk t).view.emb (ix2 k q)
      = ix2 k ⟨((((cfg1.win 4).blk t).view.emb (ix2 p q)) 1).val, idx2_lt1 _⟩ := fun k => by
    funext a; apply Fin.ext
    match a with
    | ⟨0, _⟩ => show win1_2.index t (0 : Fin 2) * 64 + 1 * k.val = k.val; omega
    | ⟨1, _⟩ => show win1_2.index t (1 : Fin 2) * 40 + 1 * q.val = win1_4.index t (1 : Fin 2) * 40 + 1 * q.val; omega
  have h3 : ((cfg1.win 3).blk t).view.emb (ix2 (0 : Fin 1) q)
      = ix2 (0 : Fin 1) ⟨((((cfg1.win 4).blk t).view.emb (ix2 p q)) 1).val, idx2_lt1 _⟩ := by
    funext a; apply Fin.ext
    match a with
    | ⟨0, _⟩ => show win1_3.index t (0 : Fin 2) * 1 + 1 * 0 = 0; omega
    | ⟨1, _⟩ => show win1_3.index t (1 : Fin 2) * 40 + 1 * q.val = win1_4.index t (1 : Fin 2) * 40 + 1 * q.val; omega
  refine congrArg₂ (· + ·) (Finset.sum_congr rfl fun k _ =>
    congrArg₂ (· * ·) (congrArg₂ max (congrArg₂ (· + ·) ?_ ?_) rfl) ?_) ?_
  · exact congrArg (V c main_v43) (h0 k)
  · exact congrArg (V c main_v45) (h1 k)
  · exact congrArg (V c main_v44) (h2 k)
  · exact congrArg (V c main_v46) h3

/-- An index of the output array is in point `t`'s block iff each coordinate is in the block's range. -/
theorem mem_blk (t : Fin cfg1.N) (i : S50000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v47).slice (win1_4.rect t)).set ↔ _
  rw [View.set_slice_whole, Rect.mem_set_unit]
  exact Iff.rfl

/-- The ten row blocks cover the output array: row r is in the block of the point whose block row is r / 5000. -/
theorem cover (i : S50000x40.Idx) :
    ∃ t : Fin cfg1.N, (cfg1.win 4).flush t = true ∧ i ∈ ((cfg1.win 4).blk t).view.set := by
  have hi0 : (i 0).val < 50000 := (i 0).isLt
  have hi1 : (i 1).val < 40 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- After the second launch its output array holds the layer of the four arrays it found. -/
theorem final (c : Dev nD) :
    (dat1 V c).arrAt 4 cfg1.N = layer (V c main_v43) (V c main_v45) (V c main_v44) (V c main_v46) :=
  (dat1 V c).arrAt_eq_of_cover 4 (layer (V c main_v43) (V c main_v45) (V c main_v44) (V c main_v46))
    (fun t _ => flushed_eq V c t) cover

end AtEntry

end Cert.KernelIdeal.SecondLaunch

end
-- ==== Proof.Aggregate.lean ====
/-
  The host stretch both programs share, as one function.

  Between the two launches the kernel's @main, and after its first matrix product the reference's @main, run the
  same graph-convolution aggregation, operation for operation and literal for literal: append the 50000 self
  loops to the two endpoint lists; count the in-degree by scatter-adding ones at the destinations; take
  deg^(-1/2) where the degree is positive and 0 elsewhere; per edge multiply the two endpoints' factors;
  gather the rows of h at the sources, scale each by its edge's coefficient and scatter-add at the
  destinations. It is stated here once, as `aggregate h src dst`, and never opened: which element a gather or a
  scatter reads depends on the edge list, and the two programs are equal whatever it holds. Each program's
  composed term is this function — of the launch's product on the kernel's side (`entry_agg`), of the host
  `dot_general` on the reference's (`ref_agg`) — by unfolding.
-/
import proofs.«148731_j14937896255790_1_alg».proof.Proof.Gen.KernelIdeal.Frame
import proofs.«148731_j14937896255790_1_alg».proof.Proof.RefRead
import Idealize.ShloMosaic.Lib.StableHlo.Run

set_option maxRecDepth 16384

noncomputable section

namespace Cert.KernelIdeal.Aggregate

open Idealize.ShloMosaic Idealize.ShloMosaic.TcCoe Idealize.SL.Sem Idealize.ShloMosaic.StableHlo
open Cert.KernelIdeal Cert.KernelIdeal.Gen

/-- An endpoint list with the 50000 self loops 0 … 49999 appended. -/
def withLoops (a : S800000.Idx → BitVec 32) : S850000.Idx → BitVec 32 :=
  concatenate S850000 0 [⟨S800000, a⟩, ⟨S50000, iotaInDim S50000 32 0⟩] concatenates_S800000_S50000_S850000_d0

/-- A list of node numbers as a one-column index array. -/
def column (e : S850000.Idx → BitVec 32) : S850000x1.Idx → BitVec 32 :=
  broadcastInDim S850000x1 ![0] bcast_S850000_S850000x1_0 e

/-- jnp indexing: a negative node number counts from the end, e + 50000. -/
def wrapped (e : S850000.Idx → BitVec 32) : S850000.Idx → BitVec 32 :=
  select (cmpi .slt e (broadcastInDim S850000 ![] bcast_S_S850000 (constantI S_ 32 0#32)))
    (addi e (broadcastInDim S850000 ![] bcast_S_S850000 (constantI S_ 32 50000#32))) e

/-- The in-degree with self loops: ones scatter-added at the destinations. -/
def degree (dst : S850000.Idx → BitVec 32) : FVec Ideal S50000 .f32 :=
  Host.scatterAdd (F := Ideal) scatter_S50000_S850000x1_S850000_n_0_0_1
    (broadcastInDim S50000 ![] bcast_S_S50000 (constant (F := Ideal) S_ .f32 0x00000000#32))
    (column dst)
    (broadcastInDim S850000 ![] bcast_S_S850000 (constant (F := Ideal) S_ .f32 0x3F800000#32))

/-- deg^(-1/2) where the degree is positive, 0 elsewhere. -/
def invSqrtDeg (dst : S850000.Idx → BitVec 32) : FVec Ideal S50000 .f32 :=
  select (cmpf (F := Ideal) .ogt (degree dst) (broadcastInDim S50000 ![] bcast_S_S50000 (constant (F := Ideal) S_ .f32 0x00000000#32)))
    (Host.rsqrt (F := Ideal) (degree dst))
    (broadcastInDim S50000 ![] bcast_S_S50000 (id (constant (F := Ideal) S_ .f32 0x00000000#32)))

/-- The edge coefficient s(src) · s(dst) for a node factor `s`. -/
def coefWith (s : FVec Ideal S50000 .f32) (src dst : S850000.Idx → BitVec 32) : FVec Ideal S850000 .f32 :=
  mulf (F := Ideal)
    (Host.gather gather_S50000_S850000x1_S850000_n_0_n_n_0_1_1 s (column (wrapped src)))
    (Host.gather gather_S50000_S850000x1_S850000_n_0_n_n_0_1_1 s (column (wrapped dst)))

/-- The neighbour sum for a node factor `s`: rows of `h` gathered at the sources, scaled by the edge coefficient
    and scatter-added at the destinations. -/
def aggregateWith (s : FVec Ideal S50000 .f32) (h : FVec Ideal S50000x64 .f32) (src dst : S850000.Idx → BitVec 32) :
    FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (column dst)
    (mulf (F := Ideal)
      (broadcastInDim S850000x64 ![0, 1] bcast_S850000x1_S850000x64_0_1
        (broadcastInDim S850000x1 ![0] bcast_S850000_S850000x1_0 (coefWith s src dst)))
      (Host.gather gather_S50000x64_S850000x1_S850000x64_1_0_n_n_0_1_164 h (column (wrapped src))))

/-- The degree-normalised neighbour sum: the node factor is deg^(-1/2) of the destinations' in-degree. -/
def aggregate (h : FVec Ideal S50000x64 .f32) (src dst : S850000.Idx → BitVec 32) : FVec Ideal S50000x64 .f32 :=
  aggregateWith (invSqrtDeg dst) h src dst

/-! ## The kernel's three host stretches, one at a time, from ANY buffer contents

Each lemma reads one buffer a later stretch uses. The first stretch builds the endpoint lists with self loops,
the degree's two readings (positive? and its inverse square root) and a zero; the second (the inlined `where`)
selects between them; the third gathers, scales and scatter-adds. -/

section Stretches
variable (Wv : Valuation τ sig (Elt Ideal))

theorem s1_v6 : StableHlo.after hostOps1 Wv (Proc.devRef .tc main_v6) = withLoops (Wv (Proc.devRef .tc main_v1)) := by
  after_results_simp
  rfl
theorem s1_v7 : StableHlo.after hostOps1 Wv (Proc.devRef .tc main_v7) = withLoops (Wv (Proc.devRef .tc main_v3)) := by
  after_results_simp
  rfl
theorem s1_v13 : StableHlo.after hostOps1 Wv (Proc.devRef .tc main_v13)
    = cmpf (F := Ideal) .ogt (degree (withLoops (Wv (Proc.devRef .tc main_v3))))
        (broadcastInDim S50000 ![] bcast_S_S50000 (constant (F := Ideal) S_ .f32 0x00000000#32)) := by
  after_results_simp
  rfl
theorem s1_v14 : StableHlo.after hostOps1 Wv (Proc.devRef .tc main_v14)
    = Host.rsqrt (F := Ideal) (degree (withLoops (Wv (Proc.devRef .tc main_v3)))) := by
  after_results_simp
  rfl
theorem s1_cst2 : StableHlo.after hostOps1 Wv (Proc.devRef .tc main_cst_2) = constant (F := Ideal) S_ .f32 0x00000000#32 := by
  after_results_simp
theorem s1_v4 : StableHlo.after hostOps1 Wv (Proc.devRef .tc main_v4) = Wv (Proc.devRef .tc main_v4) := by
  after_results_simp

theorem s2_v15 : StableHlo.after hostOps1_1 Wv (Proc.devRef .tc main_v15)
    = select (Wv (Proc.devRef .tc main_v13)) (Wv (Proc.devRef .tc main_v14))
        (broadcastInDim S50000 ![] bcast_S_S50000 (id (Wv (Proc.devRef .tc main_cst_2)))) := by
  after_results_simp
  rfl
theorem s2_v4 : StableHlo.after hostOps1_1 Wv (Proc.devRef .tc main_v4) = Wv (Proc.devRef .tc main_v4) := by
  after_results_simp
theorem s2_v6 : StableHlo.after hostOps1_1 Wv (Proc.devRef .tc main_v6) = Wv (Proc.devRef .tc main_v6) := by
  after_results_simp
theorem s2_v7 : StableHlo.after hostOps1_1 Wv (Proc.devRef .tc main_v7) = Wv (Proc.devRef .tc main_v7) := by
  after_results_simp

set_option maxHeartbeats 1000000 in
theorem s3_v43 : StableHlo.after hostOps1_2 Wv (Proc.devRef .tc main_v43)
    = aggregateWith (Wv (Proc.devRef .tc main_v15)) (Wv (Proc.devRef .tc main_v4))
        (Wv (Proc.devRef .tc main_v6)) (Wv (Proc.devRef .tc main_v7)) := by
  after_results_simp
  rfl

end Stretches

/-- The three stretches together, run from ANY buffer contents `Wv`, leave in the second launch's first operand the
    aggregate of whatever `Wv` holds in the first launch's output and in the two endpoint lists. -/
theorem entry_agg (Wv : Valuation τ sig (Elt Ideal)) :
    StableHlo.after hostOps1_2 (StableHlo.after hostOps1_1 (StableHlo.after hostOps1 Wv)) (Proc.devRef .tc main_v43)
      = aggregate (Wv (Proc.devRef .tc main_v4)) (withLoops (Wv (Proc.devRef .tc main_v1)))
          (withLoops (Wv (Proc.devRef .tc main_v3))) := by
  rw [s3_v43, s2_v15, s2_v4, s2_v6, s2_v7, s1_v13, s1_v14, s1_cst2, s1_v4, s1_v6, s1_v7]
  rfl

set_option maxHeartbeats 4000000 in
/-- The reference's scatter-add stage is the aggregate of its own matrix product and endpoint lists. -/
theorem ref_agg (x0 : Cert.ReferenceIdeal.S50000x512.Idx → EReal) (x1 : Cert.ReferenceIdeal.S2x800000.Idx → BitVec 32)
    (x2 : Cert.ReferenceIdeal.S512x64.Idx → EReal) :
    Cert.ReferenceIdeal.ReadP.val_main_v43 (F := Ideal) x0 x1 x2
      = aggregate (Cert.ReferenceIdeal.ReadP.val_main_v4 (F := Ideal) x0 x2)
          (withLoops (Cert.ReferenceIdeal.ReadP.val_main_v1 (F := Ideal) x1))
          (withLoops (Cert.ReferenceIdeal.ReadP.val_main_v3 (F := Ideal) x1)) := rfl

end Cert.KernelIdeal.Aggregate

end
-- ==== Proof.HostMid.lean ====
/-
  What the second launch finds in its four operand arrays.

  The buffer contents are walked from the launch memory through @main's segments. The first stretch of host
  operations slices the edge list into its two endpoint rows and writes no argument; the first launch leaves
  h = X · W1 in its output (`FirstLaunch.final`) and touches nothing else the later stretches read; the next
  three stretches write the aggregate of h over the edges (`Aggregate.entry_agg`), the transposed weight and
  the two biases as one-row matrices. So at the second launch's entry its operands hold: the aggregate of
  X · W1, b1 as a row, Wfcᵀ, bfc as a row — each a function of the launch memory alone.
-/
import proofs.«148731_j14937896255790_1_alg».proof.Proof.Gen.KernelIdeal.Frame
import proofs.«148731_j14937896255790_1_alg».proof.Proof.RefRead
import proofs.«148731_j14937896255790_1_alg».proof.Proof.FirstLaunch
import proofs.«148731_j14937896255790_1_alg».proof.Proof.Aggregate
import Idealize.ShloMosaic.Lib.StableHlo.Run

set_option maxRecDepth 16384

noncomputable section

namespace Cert.KernelIdeal.HostMid

open Idealize.ShloMosaic Idealize.ShloMosaic.TcCoe Idealize.SL.Sem Idealize.ShloMosaic.StableHlo
open Cert.KernelIdeal Cert.KernelIdeal.Gen Cert.KernelIdeal.Aggregate
open Cert.ReferenceIdeal.ReadP

variable (m : (ℓ : Loc nD τ sig) → Buf (Elt Ideal) ℓ) (ρ : Dev nD → PrngReg)

/-! ## The first launch's entry: the first stretch writes no argument -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

/-! ## The first launch's exit -/

/-- Its output holds the product of X and W1. -/
theorem W2_v4 (c : Dev nD) :
    W2 m ρ c (Proc.devRef .tc main_v4)
      = FirstLaunch.prod (m ((c : Thread nD τ).loc main_arg0)) (m ((c : Thread nD τ).loc main_arg2)) :=
  (W2_arr m ρ c 2).trans ((FirstLaunch.final (V1 m ρ) c).trans
    (congrArg₂ FirstLaunch.prod (V1_arg0 m ρ c) (V1_arg2 m ρ c)))

/-- The two endpoint rows are as the first stretch wrote them: the edge list's rows 0 and 1. -/
theorem W2_v1 (c : Dev nD) :
    W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

theorem W2_v3 (c : Dev nD) :
    W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- The bias and weight arguments are as launched. -/
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The second launch's entry -/

/-- Its first operand: the aggregate of X · W1 over the edges with self loops. -/
theorem V5_v43 (c : Dev nD) :
    V5 m ρ c main_v43
      = aggregate (FirstLaunch.prod (m ((c : Thread nD τ).loc main_arg0)) (m ((c : Thread nD τ).loc main_arg2)))
          (withLoops (val_main_v1 (F := Ideal) (m ((c : Thread nD τ).loc main_arg1))))
          (withLoops (val_main_v3 (F := Ideal) (m ((c : Thread nD τ).loc main_arg1)))) :=
  (entry_agg (W2 m ρ c)).trans (by rw [W2_v4, W2_v1, W2_v3])

/-- Its second operand: b1 as a one-row matrix. -/
theorem V5_v45 (c : Dev nD) :
    V5 m ρ c main_v45 = shapeCast S1x64 (m ((c : Thread nD τ).loc main_arg3)) shapeCasts_S64_S1x64 := by
  show StableHlo.after hostOps1_2 (StableHlo.after hostOps1_1 (StableHlo.after hostOps1 (W2 m ρ c))) (Proc.devRef .tc main_v45) = _
  after_results_simp
  rw [W2_arg3]
  rfl

/-- Its third operand: the weight transposed. -/
theorem V5_v44 (c : Dev nD) :
    V5 m ρ c main_v44 = val_main_v48 (F := Ideal) (m ((c : Thread nD τ).loc main_arg4)) := by
  show StableHlo.after hostOps1_2 (StableHlo.after hostOps1_1 (StableHlo.after hostOps1 (W2 m ρ c))) (Proc.devRef .tc main_v44) = _
  after_results_simp
  rw [W2_arg4]
  rfl

/-- Its fourth operand: bfc as a one-row matrix. -/
theorem V5_v46 (c : Dev nD) :
    V5 m ρ c main_v46 = shapeCast S1x40 (m ((c : Thread nD τ).loc main_arg5)) shapeCasts_S40_S1x40 := by
  show StableHlo.after hostOps1_2 (StableHlo.after hostOps1_1 (StableHlo.after hostOps1 (W2 m ρ c))) (Proc.devRef .tc main_v46) = _
  after_results_simp
  rw [W2_arg5]
  rfl

end Cert.KernelIdeal.HostMid

end
-- ==== Proof.Bridge.lean ====
/-
  The kernel's result array is the reference's last stage.

  Two index-by-index facts join the two programs. The first launch's product, the sum over k of
  X(r, k) · W1(k, c), is the host `dot_general` read at (r, c) (a sum over the contraction index, re-indexed by
  k). The second launch's layer, Σ_k max(A(r, k) + b1(k), 0) · Wfc(c, k) + bfc(c), is the reference's tail read
  at (r, c): its bias broadcast along the rows reads b1 at the column, its rectifier is the maximum with the
  zero word, its `dot_general` against the transposed weight the same sum, its second bias broadcast bfc at the
  column. No law of the extended reals beyond these readings is used: the two sides are the same sums of the
  same products in the same order, so no finiteness of the inputs is needed.
-/
import proofs.«148731_j14937896255790_1_alg».proof.Proof.Gen.KernelIdeal.Frame
import proofs.«148731_j14937896255790_1_alg».proof.Proof.RefRead
import proofs.«148731_j14937896255790_1_alg».proof.Proof.FirstLaunch
import proofs.«148731_j14937896255790_1_alg».proof.Proof.SecondLaunch
import proofs.«148731_j14937896255790_1_alg».proof.Proof.Aggregate
import proofs.«148731_j14937896255790_1_alg».proof.Proof.HostMid
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Aggregate
open Cert.ReferenceIdeal.ReadP

/-- The launch's product is the host `dot_general`. -/
theorem prod_eq (X : S50000x512.Idx → EReal) (W : S512x64.Idx → EReal) :
    FirstLaunch.prod X W = val_main_v4 (F := Ideal) X W := by
  funext i
  rw [val_main_v4_apply]
  unfold FirstLaunch.prod
  refine Finset.sum_congr rfl fun k _ => ?_
  have el : lidx_main_v4 i k = ix2 ⟨(i 0).val, idx2_lt0 i⟩ k :=
    funext fun a => by match a with | ⟨0, _⟩ => rfl | ⟨1, _⟩ => rfl
  have er : ridx_main_v4 i k = ix2 k ⟨(i 1).val, idx2_lt1 i⟩ :=
    funext fun a => by match a with | ⟨0, _⟩ => rfl | ⟨1, _⟩ => rfl
  rw [el, er]

/-- The launch's layer of (the reference's aggregate stage, b1 as a row, Wfcᵀ, bfc as a row) is the reference's
    result stage. -/
theorem layer_eq (x0 : S50000x512.Idx → EReal) (x1 : S2x800000.Idx → BitVec 32) (x2 : S512x64.Idx → EReal)
    (x3 : S64.Idx → EReal) (x4 : S40x64.Idx → EReal) (x5 : S40.Idx → EReal) :
    SecondLaunch.layer (val_main_v43 (F := Ideal) x0 x1 x2) (shapeCast S1x64 x3 shapeCasts_S64_S1x64)
        (val_main_v48 (F := Ideal) x4) (shapeCast S1x40 x5 shapeCasts_S40_S1x40)
      = val_main_v52 (F := Ideal) x0 x1 x2 x3 x4 x5 := by
  funext i
  rw [val_main_v52_apply, val_main_v49_apply, val_main_v51_apply, val_main_v50_apply, Ideal.addf_def]
  unfold SecondLaunch.layer
  refine congrArg₂ (· + ·) (Finset.sum_congr rfl fun k _ => ?_) ?_
  · have el : lidx_main_v49 i k = ix2 ⟨(i 0).val, idx2_lt0 i⟩ k :=
      funext fun a => by match a with | ⟨0, _⟩ => rfl | ⟨1, _⟩ => rfl
    have er : ridx_main_v49 i k = ix2 k ⟨(i 1).val, idx2_lt1 i⟩ :=
      funext fun a => by match a with | ⟨0, _⟩ => rfl | ⟨1, _⟩ => rfl
    rw [el, er, val_main_v47_apply, val_main_v46_apply, val_main_v45_apply, val_main_v44_apply,
      val_main_call1_v0_apply, val_main_call1_cst_apply, shapeCast_a_1a_apply]
    have eb : idx_main_v44 (idx_main_v45 (ix2 ⟨(i 0).val, idx2_lt0 i⟩ k)) = ix1 k :=
      funext fun a => by match a with | ⟨0, _⟩ => rfl
    rw [eb, Ideal.maximumf_def, Ideal.addf_def, Ideal.ofBits_def, Ideal.ofBits_zero_f32]
  · rw [shapeCast_a_1a_apply]
    refine congrArg x5 (funext fun a => ?_)
    match a with | ⟨0, _⟩ => rfl

variable (m : (ℓ : Loc nD τ sig) → Buf (Elt Ideal) ℓ) (ρ : Dev nD → PrngReg)

/-- After the run the kernel's result array holds the reference's result stage of the launch memory's six
    argument arrays. -/
theorem result_eq (c : Dev nD) :
    (dat1 (V5 m ρ) c).arrAt 4 cfg1.N
      = val_main_v52 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (SecondLaunch.final (V5 m ρ) c).trans ?_
  rw [HostMid.V5_v43, HostMid.V5_v45, HostMid.V5_v44, HostMid.V5_v46, prod_eq, ← ref_agg]
  exact layer_eq _ _ _ _ _ _

end Cert.KernelIdeal.Bridge

end
-- ==== Proof.lean ====
/-
  A one-layer graph convolution followed by a linear layer, as two tiled launches against plain jnp.

  Both programs compute, for 50000 nodes,
      out = max(agg + b1, 0) · Wfcᵀ + bfc,     agg = the degree-normalised neighbour sum of h = X · W1
  over the 800000 edges and the 50000 self loops. The kernel computes h in a launch of ten row blocks of 5000
  (the operands narrowed to bf16 for the matrix unit), runs the aggregation as host operations, and computes the
  rectified affine layer in a second launch of ten row blocks; the reference runs the same aggregation between
  two host `dot_general`s. At the ideal instance a change of float format is the identity and a block product
  into a zero accumulator is the plain sum, so each launch's output array is one whole-array function of its
  operand arrays (FirstLaunch, SecondLaunch: each block written back is that function's restriction, and the
  ten blocks tile the rows); the aggregation between them is the same composed function in both programs
  (Aggregate); and the two whole-array functions read at an index are the reference's `dot_general`, bias
  broadcasts, rectifier and final sum read at that index (Bridge). No step uses distributivity or cancellation,
  so the precondition (finite inputs) is never opened, and the edge list may hold anything.

  The three frames: the two kernels' are the generated frame certificates; the reference's is its run with the
  result dropped. `preserves` has no entry: the ideal pass rewrote nothing.
-/
import proofs.«148731_j14937896255790_1_alg».proof.Defs
import proofs.«148731_j14937896255790_1_alg».proof.Proof.Gen.Kernel
import proofs.«148731_j14937896255790_1_alg».proof.Proof.Gen.Kernel.Skeleton
import proofs.«148731_j14937896255790_1_alg».proof.Proof.Gen.Kernel.Launch
import proofs.«148731_j14937896255790_1_alg».proof.Proof.Gen.Kernel.Points
import proofs.«148731_j14937896255790_1_alg».proof.Proof.Gen.Kernel.Frame
import proofs.«148731_j14937896255790_1_alg».proof.Proof.Gen.KernelIdeal
import proofs.«148731_j14937896255790_1_alg».proof.Proof.Gen.KernelIdeal.Skeleton
import proofs.«148731_j14937896255790_1_alg».proof.Proof.Gen.KernelIdeal.Launch
import proofs.«148731_j14937896255790_1_alg».proof.Proof.Gen.KernelIdeal.Points
import proofs.«148731_j14937896255790_1_alg».proof.Proof.Gen.KernelIdeal.Frame
import proofs.«148731_j14937896255790_1_alg».proof.Proof.Gen.ReferenceIdeal
import proofs.«148731_j14937896255790_1_alg».proof.Proof.Gen.Pre_finite_inputs
import proofs.«148731_j14937896255790_1_alg».proof.Proof.RefRun
import proofs.«148731_j14937896255790_1_alg».proof.Proof.RefRead
import proofs.«148731_j14937896255790_1_alg».proof.Proof.KernelRun
import proofs.«148731_j14937896255790_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- The ideal pass's ledger is empty. -/
theorem preserves : Cert.preserves_Kernel_KernelIdeal := trivial

/-- Both runs end with the result array at the reference's result stage of the (agreeing) argument arrays: the
    kernel's by `Bridge.result_eq` over its run with the result named, the reference's by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v52_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
